-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x25 : Shape := ⟨2, ![16, 25]⟩
abbrev S16x300 : Shape := ⟨2, ![16, 300]⟩
abbrev S16x300x25x512 : Shape := ⟨4, ![16, 300, 25, 512]⟩
abbrev S1x300x25 : Shape := ⟨3, ![1, 300, 25]⟩
abbrev S_ : Shape := ⟨0, ![]⟩

class Facts : Prop where
  bcast_S_S16x25 : S_.BroadcastsInDim S16x25 (![] : Fin 0 → Fin S16x25.rank)
  reducesTo_S16x25_S_d0_1 : S16x25.ReducesTo [0, 1] S_
  h_S_ : 0 < S_.numel
  bcast_S_S16x300 : S_.BroadcastsInDim S16x300 (![] : Fin 0 → Fin S16x300.rank)
  reducesTo_S16x300_S_d0_1 : S16x300.ReducesTo [0, 1] S_
  bcast_S_S16x300x25x512 : S_.BroadcastsInDim S16x300x25x512 (![] : Fin 0 → Fin S16x300x25x512.rank)
  reducesTo_S16x300x25x512_S_d0_1_2_3 : S16x300x25x512.ReducesTo [0, 1, 2, 3] S_
  bcast_S_S1x300x25 : S_.BroadcastsInDim S1x300x25 (![] : Fin 0 → Fin S1x300x25.rank)
  reducesTo_S1x300x25_S_d0_1_2 : S1x300x25.ReducesTo [0, 1, 2] S_

variable [Facts]

def fn_part1 {F : FTy → Type} [FloatOps F] (main_v13 : IVec S_ 1) (main_v16 : IVec S1x300x25 1) : IVec S_ 1 :=
  let main_c_5 : IVec S_ 1 := constantI S_ 1 1#1
  let main_v17 : IVec S_ 1 := (fun x v => Host.reduce IntOp.andi x v reducesTo_S1x300x25_S_d0_1_2 h_S_) main_v16 main_c_5
  let main_v18 : IVec S_ 1 := andi main_v13 main_v17
  main_v18

def fn {F : FTy → Type} [FloatOps F] (main_arg0 : FVec F S16x25 .f32) (main_arg1 : FVec F S16x300 .f32) (main_arg2 : FVec F S16x300x25x512 .f32) (main_arg3 : FVec F S1x300x25 .f32) : IVec S_ 1 :=
  let main_v0 : FVec F S16x25 .f32 := Host.absf main_arg0
  let main_cst : FVec F S_ .f32 := constant S_ .f32 0x7F800000#32
  let main_v1 : FVec F S16x25 .f32 := broadcastInDim S16x25 ![] bcast_S_S16x25 main_cst
  let main_v2 : IVec S16x25 1 := cmpf .olt main_v0 main_v1
  let main_c : IVec S_ 1 := constantI S_ 1 1#1
  let main_v3 : IVec S_ 1 := (fun x v => Host.reduce IntOp.andi x v reducesTo_S16x25_S_d0_1 h_S_) main_v2 main_c
  let main_v4 : FVec F S16x300 .f32 := Host.absf main_arg1
  let main_cst_0 : FVec F S_ .f32 := constant S_ .f32 0x7F800000#32
  let main_v5 : FVec F S16x300 .f32 := broadcastInDim S16x300 ![] bcast_S_S16x300 main_cst_0
  let main_v6 : IVec S16x300 1 := cmpf .olt main_v4 main_v5
  let main_c_1 : IVec S_ 1 := constantI S_ 1 1#1
  let main_v7 : IVec S_ 1 := (fun x v => Host.reduce IntOp.andi x v reducesTo_S16x300_S_d0_1 h_S_) main_v6 main_c_1
  let main_v8 : IVec S_ 1 := andi main_v3 main_v7
  let main_v9 : FVec F S16x300x25x512 .f32 := Host.absf main_arg2
  let main_cst_2 : FVec F S_ .f32 := constant S_ .f32 0x7F800000#32
  let main_v10 : FVec F S16x300x25x512 .f32 := broadcastInDim S16x300x25x512 ![] bcast_S_S16x300x25x512 main_cst_2
  let main_v11 : IVec S16x300x25x512 1 := cmpf .olt main_v9 main_v10
  let main_c_3 : IVec S_ 1 := constantI S_ 1 1#1
  let main_v12 : IVec S_ 1 := (fun x v => Host.reduce IntOp.andi x v reducesTo_S16x300x25x512_S_d0_1_2_3 h_S_) main_v11 main_c_3
  let main_v13 : IVec S_ 1 := andi main_v8 main_v12
  let main_v14 : FVec F S1x300x25 .f32 := Host.absf main_arg3
  let main_cst_4 : FVec F S_ .f32 := constant S_ .f32 0x7F800000#32
  let main_v15 : FVec F S1x300x25 .f32 := broadcastInDim S1x300x25 ![] bcast_S_S1x300x25 main_cst_4
  let main_v16 : IVec S1x300x25 1 := cmpf .olt main_v14 main_v15
  fn_part1 (F := F) main_v13 main_v16
-- ==== Kernel.lean ====
abbrev S16x25 : Shape := ⟨2, ![16, 25]⟩
abbrev S16x300 : Shape := ⟨2, ![16, 300]⟩
abbrev S16x300x25x512 : Shape := ⟨4, ![16, 300, 25, 512]⟩
abbrev S1x300x25 : Shape := ⟨3, ![1, 300, 25]⟩
abbrev S_ : Shape := ⟨0, ![]⟩
abbrev S16 : Shape := ⟨1, ![16]⟩
abbrev S16x1 : Shape := ⟨2, ![16, 1]⟩
abbrev S16x1x25x1 : Shape := ⟨4, ![16, 1, 25, 1]⟩
abbrev S16x300x1x1 : Shape := ⟨4, ![16, 300, 1, 1]⟩
abbrev S1x300x25x1 : Shape := ⟨4, ![1, 300, 25, 1]⟩
abbrev S1x1x25x1 : Shape := ⟨4, ![1, 1, 25, 1]⟩
abbrev S1x150x1x1 : Shape := ⟨4, ![1, 150, 1, 1]⟩
abbrev S1x150x25x1 : Shape := ⟨4, ![1, 150, 25, 1]⟩
abbrev S1x150x25x512 : Shape := ⟨4, ![1, 150, 25, 512]⟩
abbrev S25 : Shape := ⟨1, ![25]⟩
abbrev S150 : Shape := ⟨1, ![150]⟩
abbrev S150x25 : Shape := ⟨2, ![150, 25]⟩
abbrev S150x1 : Shape := ⟨2, ![150, 1]⟩
abbrev S1x25 : Shape := ⟨2, ![1, 25]⟩

abbrev nBuf : Space → Nat
  | .hbm => 28
  | .vmem => 10
  | .smem => 0
  | _ => 0

abbrev bufTy : (tb : Table) → Fin (tcTables nBuf tb) → BufTy
  | .hbm, ⟨0, _⟩ => ⟨S16x25, .f32⟩
  | .hbm, ⟨1, _⟩ => ⟨S16x300, .f32⟩
  | .hbm, ⟨2, _⟩ => ⟨S16x300x25x512, .f32⟩
  | .hbm, ⟨3, _⟩ => ⟨S1x300x25, .f32⟩
  | .hbm, ⟨4, _⟩ => ⟨S16x25, .f32⟩
  | .hbm, ⟨5, _⟩ => ⟨S_, .f32⟩
  | .hbm, ⟨6, _⟩ => ⟨S16, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x1, .f32⟩
  | .hbm, ⟨12, _⟩ => ⟨S16x25, .f32⟩
  | .hbm, ⟨13, _⟩ => ⟨S16x25, .f32⟩
  | .hbm, ⟨14, _⟩ => ⟨S16x300, .f32⟩
  | .hbm, ⟨15, _⟩ => ⟨S_, .f32⟩
  | .hbm, ⟨16, _⟩ => ⟨S16, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x1, .f32⟩
  | .hbm, ⟨22, _⟩ => ⟨S16x300, .f32⟩
  | .hbm, ⟨23, _⟩ => ⟨S16x300, .f32⟩
  | .hbm, ⟨24, _⟩ => ⟨S16x1x25x1, .f32⟩
  | .hbm, ⟨25, _⟩ => ⟨S16x300x1x1, .f32⟩
  | .hbm, ⟨26, _⟩ => ⟨S1x300x25x1, .f32⟩
  | .hbm, ⟨27, _⟩ => ⟨S16x300x25x512, .f32⟩
  | .local _ .vmem, ⟨0, _⟩ => ⟨S1x1x25x1, .f32⟩
  | .local _ .vmem, ⟨1, _⟩ => ⟨S1x1x25x1, .f32⟩
  | .local _ .vmem, ⟨2, _⟩ => ⟨S1x150x1x1, .f32⟩
  | .local _ .vmem, ⟨3, _⟩ => ⟨S1x150x1x1, .f32⟩
  | .local _ .vmem, ⟨4, _⟩ => ⟨S1x150x25x1, .f32⟩
  | .local _ .vmem, ⟨5, _⟩ => ⟨S1x150x25x1, .f32⟩
  | .local _ .vmem, ⟨6, _⟩ => ⟨S1x150x25x512, .f32⟩
  | .local _ .vmem, ⟨7, _⟩ => ⟨S1x150x25x512, .f32⟩
  | .local _ .vmem, ⟨8, _⟩ => ⟨S1x150x25x512, .f32⟩
  | .local _ .vmem, ⟨9, _⟩ => ⟨S1x150x25x512, .f32⟩
  | _, _ => ⟨S16x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x25x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x150x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x150x25x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x150x25x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x150x25x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S16x25_S16_d1 : S16x25.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x25_0_1 : S16x1.BroadcastsInDim S16x25 (![0, 1] : Fin 2 → Fin S16x25.rank)
  reducesTo_S16x300_S16_d1 : S16x300.ReducesTo [1] S16
  bcast_S16x1_S16x300_0_1 : S16x1.BroadcastsInDim S16x300 (![0, 1] : Fin 2 → Fin S16x300.rank)
  shapeCasts_S16x25_S16x1x25x1 : S16x25.ShapeCasts S16x1x25x1
  shapeCasts_S16x300_S16x300x1x1 : S16x300.ShapeCasts S16x300x1x1
  shapeCasts_S1x300x25_S1x300x25x1 : S1x300x25.ShapeCasts S1x300x25x1
  inb_S1x1x25x1_S1x1x25x1_0_0_0_0 : ∀ a, (![0, 0, 0, 0] : Fin 4 → Nat) a + S1x1x25x1.size a ≤ S1x1x25x1.size a
  h_S1x1x25x1 : 0 < S1x1x25x1.numel
  shapeCasts_S1x1x25x1_S25 : S1x1x25x1.ShapeCasts S25
  inb_S1x150x1x1_S1x150x1x1_0_0_0_0 : ∀ a, (![0, 0, 0, 0] : Fin 4 → Nat) a + S1x150x1x1.size a ≤ S1x150x1x1.size a
  h_S1x150x1x1 : 0 < S1x150x1x1.numel
  shapeCasts_S1x150x1x1_S150 : S1x150x1x1.ShapeCasts S150
  inb_S1x150x25x1_S1x150x25x1_0_0_0_0 : ∀ a, (![0, 0, 0, 0] : Fin 4 → Nat) a + S1x150x25x1.size a ≤ S1x150x25x1.size a
  h_S1x150x25x1 : 0 < S1x150x25x1.numel
  shapeCasts_S1x150x25x1_S150x25 : S1x150x25x1.ShapeCasts S150x25
  shapeCasts_S150_S150x1 : S150.ShapeCasts S150x1
  shapeCasts_S25_S1x25 : S25.ShapeCasts S1x25
  broadcasts_S150x1_S150x25 : S150x1.Broadcasts S150x25
  broadcasts_S1x25_S150x25 : S1x25.Broadcasts S150x25
  shapeCasts_S150x25_S1x150x25x1 : S150x25.ShapeCasts S1x150x25x1
  inb_S1x150x25x512_S1x150x25x512_0_0_0_0 : ∀ a, (![0, 0, 0, 0] : Fin 4 → Nat) a + S1x150x25x512.size a ≤ S1x150x25x512.size a
  h_S1x150x25x512 : 0 < S1x150x25x512.numel
  broadcasts_S1x150x25x1_S1x150x25x512 : S1x150x25x1.Broadcasts S1x150x25x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x25x1.size a ≤ S16x1x25x1.size a
  hwx0_0 : ∀ i : grid0.Coords, EltTy.bits .f32 = 32 ∨ (Rect.block (s := S16x1x25x1) S1x1x25x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x150x1x1.size a ≤ S16x300x1x1.size a
  hwx0_1 : ∀ i : grid0.Coords, EltTy.bits .f32 = 32 ∨ (Rect.block (s := S16x300x1x1) S1x150x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x150x25x1.size a ≤ S1x300x25x1.size a
  hwx0_2 : ∀ i : grid0.Coords, EltTy.bits .f32 = 32 ∨ (Rect.block (s := S1x300x25x1) S1x150x25x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x150x25x512.size a ≤ S16x300x25x512.size a
  hwx0_3 : ∀ i : grid0.Coords, EltTy.bits .f32 = 32 ∨ (Rect.block (s := S16x300x25x512) S1x150x25x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x150x25x512.size a ≤ S16x300x25x512.size a
  hwx0_4 : ∀ i : grid0.Coords, EltTy.bits .f32 = 32 ∨ (Rect.block (s := S16x300x25x512) S1x150x25x512.size (cc0_transform_4 i) (hinb0_4 i)).WholeWords (EltTy.packing .f32)

variable [Facts₀]

abbrev win0_0 : Pipeline.Window sig grid0 :=
  Pipeline.Window.ofSpec (Memref.whole main_v16) S1x1x25x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x150x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x150x25x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x150x25x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x150x25x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x25 : Shape := ⟨2, ![16, 25]⟩
abbrev S16x300 : Shape := ⟨2, ![16, 300]⟩
abbrev S16x300x25x512 : Shape := ⟨4, ![16, 300, 25, 512]⟩
abbrev S1x300x25 : Shape := ⟨3, ![1, 300, 25]⟩
abbrev S_ : Shape := ⟨0, ![]⟩
abbrev S16 : Shape := ⟨1, ![16]⟩
abbrev S16x1 : Shape := ⟨2, ![16, 1]⟩
abbrev S16x1x25 : Shape := ⟨3, ![16, 1, 25]⟩
abbrev S16x300x1 : Shape := ⟨3, ![16, 300, 1]⟩
abbrev S16x300x25 : Shape := ⟨3, ![16, 300, 25]⟩
abbrev S16x300x25x1 : Shape := ⟨4, ![16, 300, 25, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x25, .f32⟩
  | .hbm, ⟨1, _⟩ => ⟨S16x300, .f32⟩
  | .hbm, ⟨2, _⟩ => ⟨S16x300x25x512, .f32⟩
  | .hbm, ⟨3, _⟩ => ⟨S1x300x25, .f32⟩
  | .hbm, ⟨4, _⟩ => ⟨S16x25, .f32⟩
  | .hbm, ⟨5, _⟩ => ⟨S_, .f32⟩
  | .hbm, ⟨6, _⟩ => ⟨S16, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x1, .f32⟩
  | .hbm, ⟨12, _⟩ => ⟨S16x25, .f32⟩
  | .hbm, ⟨13, _⟩ => ⟨S16x25, .f32⟩
  | .hbm, ⟨14, _⟩ => ⟨S16x300, .f32⟩
  | .hbm, ⟨15, _⟩ => ⟨S_, .f32⟩
  | .hbm, ⟨16, _⟩ => ⟨S16, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x1, .f32⟩
  | .hbm, ⟨22, _⟩ => ⟨S16x300, .f32⟩
  | .hbm, ⟨23, _⟩ => ⟨S16x300, .f32⟩
  | .hbm, ⟨24, _⟩ => ⟨S16x1x25, .f32⟩
  | .hbm, ⟨25, _⟩ => ⟨S16x300x1, .f32⟩
  | .hbm, ⟨26, _⟩ => ⟨S16x300x25, .f32⟩
  | .hbm, ⟨27, _⟩ => ⟨S16x300x25, .f32⟩
  | .hbm, ⟨28, _⟩ => ⟨S16x300x25, .f32⟩
  | .hbm, ⟨29, _⟩ => ⟨S16x300x25, .f32⟩
  | .hbm, ⟨30, _⟩ => ⟨S16x300x25, .f32⟩
  | .hbm, ⟨31, _⟩ => ⟨S16x300x25x1, .f32⟩
  | .hbm, ⟨32, _⟩ => ⟨S16x300x25x512, .f32⟩
  | .hbm, ⟨33, _⟩ => ⟨S16x300x25x512, .f32⟩
  | _, _ => ⟨S16x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  reducesTo_S16x25_S16_d1 : S16x25.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x25_0_1 : S16x1.BroadcastsInDim S16x25 (![0, 1] : Fin 2 → Fin S16x25.rank)
  reducesTo_S16x300_S16_d1 : S16x300.ReducesTo [1] S16
  bcast_S16x1_S16x300_0_1 : S16x1.BroadcastsInDim S16x300 (![0, 1] : Fin 2 → Fin S16x300.rank)
  bcast_S16x25_S16x1x25_0_2 : S16x25.BroadcastsInDim S16x1x25 (![0, 2] : Fin 2 → Fin S16x1x25.rank)
  bcast_S16x300_S16x300x1_0_1 : S16x300.BroadcastsInDim S16x300x1 (![0, 1] : Fin 2 → Fin S16x300x1.rank)
  bcast_S16x1x25_S16x300x25_0_1_2 : S16x1x25.BroadcastsInDim S16x300x25 (![0, 1, 2] : Fin 3 → Fin S16x300x25.rank)
  bcast_S16x300x1_S16x300x25_0_1_2 : S16x300x1.BroadcastsInDim S16x300x25 (![0, 1, 2] : Fin 3 → Fin S16x300x25.rank)
  bcast_S1x300x25_S16x300x25_0_1_2 : S1x300x25.BroadcastsInDim S16x300x25 (![0, 1, 2] : Fin 3 → Fin S16x300x25.rank)
  bcast_S16x300x25_S16x300x25x1_0_1_2 : S16x300x25.BroadcastsInDim S16x300x25x1 (![0, 1, 2] : Fin 3 → Fin S16x300x25x1.rank)
  bcast_S16x300x25x1_S16x300x25x512_0_1_2_3 : S16x300x25x1.BroadcastsInDim S16x300x25x512 (![0, 1, 2, 3] : Fin 4 → Fin S16x300x25x512.rank)

variable [Facts₀]

class Facts : Prop extends Facts₀ where

variable [Facts]
-- ==== Proof.AttnMap.lean ====
/-
  The result both programs compute, as one function of four arrays, index by index.

  Given a per-batch spatial vector `s : [16, 25]`, a per-batch temporal vector `t : [16, 300]`, a prior map
  `roi : [1, 300, 25]` shared by every batch, and an input `x : [16, 300, 25, 512]`, the attention map is the outer
  product of the two vectors plus the prior, `a b h w = s b w · t b h + roi 0 h w`, and the result scales every
  channel of the input by it: `out b h w c = a b h w · x b h w c`.

  The two programs differ in one place only: one forms the outer product as `t b h · s b w`, the other as
  `s b w · t b h`. Multiplication of extended reals is commutative with no side condition (unlike distributivity
  or cancellation it does not fail at the infinities), so the two are the same function, for every input,
  finite or not.
-/
import Idealize.ShloMosaic.PureOps.Ideal
import Idealize.ShloMosaic.Lib.ValueIdx

noncomputable section

namespace Cert.AttnMap

open Idealize.ShloMosaic Idealize.ShloMosaic.ValueIdx

/-- `out b h w c = (s b w · t b h + roi 0 h w) · x b h w c`: the outer-product attention map plus the prior, applied to
    every channel of the input. -/
def scaled (s : FVec Ideal (⟨2, ![16, 25]⟩ : Shape) .f32) (t : FVec Ideal (⟨2, ![16, 300]⟩ : Shape) .f32)
    (roi : FVec Ideal (⟨3, ![1, 300, 25]⟩ : Shape) .f32) (x : FVec Ideal (⟨4, ![16, 300, 25, 512]⟩ : Shape) .f32) :
    FVec Ideal (⟨4, ![16, 300, 25, 512]⟩ : Shape) .f32 :=
  fun i => (s (ix2 (i 0) (i 2)) * t (ix2 (i 0) (i 1)) + roi (ix3 (0 : Fin 1) (i 1) (i 2))) * x i

/-- The same map with the outer product formed in the other order, `t b h · s b w`. -/
def scaledSwapped (s : FVec Ideal (⟨2, ![16, 25]⟩ : Shape) .f32) (t : FVec Ideal (⟨2, ![16, 300]⟩ : Shape) .f32)
    (roi : FVec Ideal (⟨3, ![1, 300, 25]⟩ : Shape) .f32) (x : FVec Ideal (⟨4, ![16, 300, 25, 512]⟩ : Shape) .f32) :
    FVec Ideal (⟨4, ![16, 300, 25, 512]⟩ : Shape) .f32 :=
  fun i => (t (ix2 (i 0) (i 1)) * s (ix2 (i 0) (i 2)) + roi (ix3 (0 : Fin 1) (i 1) (i 2))) * x i

/-- The order of the outer product's two factors does not matter: the product of extended reals is commutative. -/
theorem scaledSwapped_eq (s : FVec Ideal (⟨2, ![16, 25]⟩ : Shape) .f32) (t : FVec Ideal (⟨2, ![16, 300]⟩ : Shape) .f32)
    (roi : FVec Ideal (⟨3, ![1, 300, 25]⟩ : Shape) .f32) (x : FVec Ideal (⟨4, ![16, 300, 25, 512]⟩ : Shape) .f32) :
    scaledSwapped s t roi x = scaled s t roi x := by
  funext i
  unfold scaledSwapped scaled
  rw [mul_comm (t _) (s _)]

end Cert.AttnMap

end
-- ==== Proof.RefIsAttn.lean ====
/-
  The reference program's result, read at an index, is the attention map applied to the input.

  The reference normalises the rows of its first two arguments (the stages `val_main_v7` of the spatial vectors and
  `val_main_v15` of the temporal ones), broadcasts the two normalised arrays to `[16, 300, 25]` — the spatial one along
  the height axis, the temporal one along the width axis — multiplies them, adds the prior broadcast over the batch
  axis, broadcasts the sum over the 512 channels and multiplies by the input. Every broadcast reads its operand at the
  index with the new axis dropped (or set to `0`), so at `(b, h, w, c)` the result is
  `(s b w · t b h + roi 0 h w) · x b h w c`, which is `Cert.AttnMap.scaled` of the two normalised arrays.
-/
import proofs.«127211_j21629455303185_2_alg».proof.Proof.Gen.ReferenceIdeal.Read
import proofs.«127211_j21629455303185_2_alg».proof.Proof.AttnMap
import Idealize.ShloMosaic.Lib.ValueIdx

noncomputable section

namespace Cert.ReferenceIdeal.RefValue

open Cert.ReferenceIdeal Cert.ReferenceIdeal.Read Idealize.ShloMosaic Idealize.ShloMosaic.ValueIdx

/-- Through the four broadcasts above it, the normalised spatial array is read at `(b, w)`. -/
theorem spatial_index (i : S16x300x25x512.Idx) :
    idx_main_v16 (idx_main_v18 (idx_main_v23 (idx_main_v24 i))) = ix2 (i 0) (i 2) :=
  funext fun a => by match a with | ⟨0, _⟩ => rfl | ⟨1, _⟩ => rfl

/-- Through the four broadcasts above it, the normalised temporal array is read at `(b, h)`. -/
theorem temporal_index (i : S16x300x25x512.Idx) :
    idx_main_v17 (idx_main_v19 (idx_main_v23 (idx_main_v24 i))) = ix2 (i 0) (i 1) :=
  funext fun a => by match a with | ⟨0, _⟩ => rfl | ⟨1, _⟩ => rfl

/-- Through the three broadcasts above it, the prior is read at `(0, h, w)`. -/
theorem prior_index (i : S16x300x25x512.Idx) :
    idx_main_v21 (idx_main_v23 (idx_main_v24 i)) = ix3 (0 : Fin 1) (i 1) (i 2) :=
  funext fun a => by match a with | ⟨0, _⟩ => rfl | ⟨1, _⟩ => rfl | ⟨2, _⟩ => rfl

/-- The reference's last stage is the attention map of its two normalised arrays and the prior, applied to the
    input. -/
theorem result_eq (x0 : FVec Ideal S16x25 .f32) (x1 : FVec Ideal S16x300 .f32) (x2 : FVec Ideal S16x300x25x512 .f32)
    (x3 : FVec Ideal S1x300x25 .f32) :
    val_main_v25 (F := Ideal) x0 x1 x2 x3
      = Cert.AttnMap.scaled (val_main_v7 (F := Ideal) x0) (val_main_v15 (F := Ideal) x1) x3 x2 := by
  funext i
  rw [val_main_v25_apply, val_main_v24_apply, val_main_v23_apply, val_main_v22_apply, val_main_v20_apply,
    val_main_v21_apply, val_main_v18_apply, val_main_v19_apply, val_main_v16_apply, val_main_v17_apply,
    spatial_index, temporal_index, prior_index]
  rfl

end Cert.ReferenceIdeal.RefValue

end
-- ==== Proof.KernelBlocks.lean ====
/-
  What one grid point of the kernel writes back, as a block of one whole-array function.

  The grid is `16 × 2`: point `(b, k)` works on batch `b` and on rows `150 k … 150 k + 149` of the height axis. Its
  body multiplies the point's `150` temporal entries by the batch's `25` spatial entries (an outer product, temporal
  factor first), adds the prior's `150 × 25` tile, and scales the `150 × 25 × 512` tile of the input, channel by
  channel. The four input windows move with the output window: along the batch axis the spatial, temporal and input
  windows have the output's block index and the prior's stays at `0`; along the height axis the temporal, prior and
  input windows have the output's block index and the spatial one stays at `0`; no window moves along the last two
  axes. Hence what point `t` writes is block `t` of the function `windowed` below of the four staged arrays.
-/
import proofs.«127211_j21629455303185_2_alg».proof.Proof.Gen.KernelIdeal.Value
import Idealize.ShloMosaic.Lib.Pipeline.Value
import Idealize.ShloMosaic.Lib.ValueIdx

noncomputable section

namespace Cert.KernelIdeal.AttnValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The array the kernel's blocks are cut from, as a function of the four staged arrays: at `(b, h, w, c)` the
    temporal entry `(b, h, 0, 0)` times the spatial entry `(b, 0, w, 0)`, plus the prior's entry `(0, h, w, 0)`, times
    the input's entry `(b, h, w, c)`. -/
def windowed (s4 : Vec F S16x1x25x1 .f32) (t4 : Vec F S16x300x1x1 .f32) (r4 : Vec F S1x300x25x1 .f32)
    (x : Vec F S16x300x25x512 .f32) : Vec F S16x300x25x512 .f32 :=
  fun i => FloatOps.mulf (FloatOps.addf (FloatOps.mulf (t4 (ix4 (i 0) (i 1) (0 : Fin 1) (0 : Fin 1)))
    (s4 (ix4 (i 0) (0 : Fin 1) (i 2) (0 : Fin 1)))) (r4 (ix4 (0 : Fin 1) (i 1) (i 2) (0 : Fin 1)))) (x i)

/-- Every access of the body starts at the origin of its buffer. -/
theorem zero_offsets : (![0, 0, 0, 0] : Fin 4 → Nat) = fun _ => 0 := funext fun a => by fin_cases a <;> rfl

/-- How the five windows' block indices are related at every grid point (decided over the 32 points): which axes of
    each input window follow the output window, and which stay at block `0`. -/
theorem block_indices : ∀ t : Fin cfg0.N,
    (win0_0.index t (0 : Fin 4) = win0_4.index t (0 : Fin 4) ∧ win0_0.index t (1 : Fin 4) = 0
      ∧ win0_0.index t (2 : Fin 4) = 0 ∧ win0_0.index t (3 : Fin 4) = 0)
    ∧ (win0_1.index t (0 : Fin 4) = win0_4.index t (0 : Fin 4) ∧ win0_1.index t (1 : Fin 4) = win0_4.index t (1 : Fin 4)
      ∧ win0_1.index t (2 : Fin 4) = 0 ∧ win0_1.index t (3 : Fin 4) = 0)
    ∧ (win0_2.index t (0 : Fin 4) = 0 ∧ win0_2.index t (1 : Fin 4) = win0_4.index t (1 : Fin 4)
      ∧ win0_2.index t (2 : Fin 4) = 0 ∧ win0_2.index t (3 : Fin 4) = 0)
    ∧ (win0_3.index t (0 : Fin 4) = win0_4.index t (0 : Fin 4) ∧ win0_3.index t (1 : Fin 4) = win0_4.index t (1 : Fin 4)
      ∧ win0_3.index t (2 : Fin 4) = 0 ∧ win0_3.index t (3 : Fin 4) = 0)
    ∧ (win0_4.index t (0 : Fin 4) ≤ 15 ∧ win0_4.index t (1 : Fin 4) ≤ 1
      ∧ win0_4.index t (2 : Fin 4) = 0 ∧ win0_4.index t (3 : Fin 4) = 0) :=
  (by decide +kernel : ∀ t : Fin grid0.N, _)

variable (m : (ℓ : Loc nD τ sig) → Buf (Elt F) ℓ)

/-- WHAT POINT `t` WRITES BACK is block `t` of `windowed` of the four staged arrays as the region finds them. -/
theorem flushed_eq (c : Dev nD) (t : Fin cfg0.N) :
    (dats m 0 c).flushed 4 t = ((cfg0.win 4).blk t).view.read (Elt F)
      (windowed (V m c main_v16) (V m c main_v17) (V m c main_v18) (V m c main_arg2)) := by
  rw [Value.flushed4]
  unfold out0_4
  simp only [View.ld_unit_zero (S := S1x1x25x1) zero_offsets, View.ld_unit_zero (S := S1x150x1x1) zero_offsets,
    View.ld_unit_zero (S := S1x150x25x1) zero_offsets, View.ld_unit_zero (S := S1x150x25x512) zero_offsets]
  have hcanon : View.canon [⟨r0_3, k0_pay1 (iblk m c 0 t) (iblk m c 1 t) (iblk m c 2 t) (iblk m c 3 t)⟩]
      = Value.E4 (iblk m c 1 t) (iblk m c 0 t) (iblk m c 2 t) (iblk m c 3 t) :=
    funext fun y => Value.canon4_eq (iblk m c 1 t) (iblk m c 0 t) (iblk m c 2 t) (iblk m c 3 t) y
  rw [hcanon]
  obtain ⟨⟨s0, s1, s2, s3⟩, ⟨t0, t1, t2, t3⟩, ⟨p0, p1, p2, p3⟩, ⟨x0, x1, x2, x3⟩, ⟨o0, o1, o2, o3⟩⟩ := block_indices t
  funext j
  have hj0 : (j 0).val < 1 := (j 0).isLt
  have hj1 : (j 1).val < 150 := (j 1).isLt
  have hj2 : (j 2).val < 25 := (j 2).isLt
  have hj3 : (j 3).val < 512 := (j 3).isLt
  show FloatOps.mulf (FloatOps.addf (FloatOps.mulf
        (V m c main_v17 (((cfg0.win 1).blk t).view.emb (Value.ix4_0 j)))
        (V m c main_v16 (((cfg0.win 0).blk t).view.emb (Value.ix4_1 j))))
        (V m c main_v18 (((cfg0.win 2).blk t).view.emb (Value.ix4_2 j))))
        (V m c main_arg2 (((cfg0.win 3).blk t).view.emb (Value.ix4_3 j)))
    = FloatOps.mulf (FloatOps.addf (FloatOps.mulf
        (V m c main_v17 (ix4 ((((cfg0.win 4).blk t).view.emb j) 0) ((((cfg0.win 4).blk t).view.emb j) 1) (0 : Fin 1) (0 : Fin 1)))
        (V m c main_v16 (ix4 ((((cfg0.win 4).blk t).view.emb j) 0) (0 : Fin 1) ((((cfg0.win 4).blk t).view.emb j) 2) (0 : Fin 1))))
        (V m c main_v18 (ix4 (0 : Fin 1) ((((cfg0.win 4).blk t).view.emb j) 1) ((((cfg0.win 4).blk t).view.emb j) 2) (0 : Fin 1))))
        (V m c main_arg2 (((cfg0.win 4).blk t).view.emb j))
  have e1 : ((cfg0.win 1).blk t).view.emb (Value.ix4_0 j)
      = ix4 ((((cfg0.win 4).blk t).view.emb j) 0) ((((cfg0.win 4).blk t).view.emb j) 1) (0 : Fin 1) (0 : Fin 1) := by
    funext a; apply Fin.ext
    match a with
    | ⟨0, _⟩ => show win0_1.index t (0 : Fin 4) * 1 + 1 * 0 = win0_4.index t (0 : Fin 4) * 1 + 1 * (j 0).val; omega
    | ⟨1, _⟩ => show win0_1.index t (1 : Fin 4) * 150 + 1 * (j 1).val = win0_4.index t (1 : Fin 4) * 150 + 1 * (j 1).val; omega
    | ⟨2, _⟩ => show win0_1.index t (2 : Fin 4) * 1 + 1 * 0 = 0; omega
    | ⟨3, _⟩ => show win0_1.index t (3 : Fin 4) * 1 + 1 * 0 = 0; omega
  have e0 : ((cfg0.win 0).blk t).view.emb (Value.ix4_1 j)
      = ix4 ((((cfg0.win 4).blk t).view.emb j) 0) (0 : Fin 1) ((((cfg0.win 4).blk t).view.emb j) 2) (0 : Fin 1) := by
    funext a; apply Fin.ext
    match a with
    | ⟨0, _⟩ => show win0_0.index t (0 : Fin 4) * 1 + 1 * 0 = win0_4.index t (0 : Fin 4) * 1 + 1 * (j 0).val; omega
    | ⟨1, _⟩ => show win0_0.index t (1 : Fin 4) * 1 + 1 * 0 = 0; omega
    | ⟨2, _⟩ => show win0_0.index t (2 : Fin 4) * 25 + 1 * (j 2).val = win0_4.index t (2 : Fin 4) * 25 + 1 * (j 2).val; omega
    | ⟨3, _⟩ => show win0_0.index t (3 : Fin 4) * 1 + 1 * 0 = 0; omega
  have e2 : ((cfg0.win 2).blk t).view.emb (Value.ix4_2 j)
      = ix4 (0 : Fin 1) ((((cfg0.win 4).blk t).view.emb j) 1) ((((cfg0.win 4).blk t).view.emb j) 2) (0 : Fin 1) := by
    funext a; apply Fin.ext
    match a with
    | ⟨0, _⟩ => show win0_2.index t (0 : Fin 4) * 1 + 1 * 0 = 0; omega
    | ⟨1, _⟩ => show win0_2.index t (1 : Fin 4) * 150 + 1 * (j 1).val = win0_4.index t (1 : Fin 4) * 150 + 1 * (j 1).val; omega
    | ⟨2, _⟩ => show win0_2.index t (2 : Fin 4) * 25 + 1 * (j 2).val = win0_4.index t (2 : Fin 4) * 25 + 1 * (j 2).val; omega
    | ⟨3, _⟩ => show win0_2.index t (3 : Fin 4) * 1 + 1 * 0 = 0; omega
  have e3 : ((cfg0.win 3).blk t).view.emb (Value.ix4_3 j) = ((cfg0.win 4).blk t).view.emb j := by
    funext a; apply Fin.ext
    match a with
    | ⟨0, _⟩ => show win0_3.index t (0 : Fin 4) * 1 + 1 * 0 = win0_4.index t (0 : Fin 4) * 1 + 1 * (j 0).val; omega
    | ⟨1, _⟩ => show win0_3.index t (1 : Fin 4) * 150 + 1 * (j 1).val = win0_4.index t (1 : Fin 4) * 150 + 1 * (j 1).val; omega
    | ⟨2, _⟩ => show win0_3.index t (2 : Fin 4) * 25 + 1 * (j 2).val = win0_4.index t (2 : Fin 4) * 25 + 1 * (j 2).val; omega
    | ⟨3, _⟩ => show win0_3.index t (3 : Fin 4) * 512 + 1 * (j 3).val = win0_4.index t (3 : Fin 4) * 512 + 1 * (j 3).val; omega
  rw [e1, e0, e2, e3]
  rfl

end Cert.KernelIdeal.AttnValue

end
-- ==== Proof.KernelEntry.lean ====
/-
  What the kernel's region finds in the three arrays its host prologue prepares.

  Before the region the host normalises the rows of the two attention inputs — each row `x` becomes
  `x · rsqrt (max (∑ x²) ε)`, the sum over the row's own axis, `ε` the same small constant for both — and then only
  re-lays arrays: the normalised spatial array `[16, 25]` as `[16, 1, 25, 1]`, the normalised temporal array
  `[16, 300]` as `[16, 300, 1, 1]`, and the prior `[1, 300, 25]` as `[1, 300, 25, 1]`. A reshape keeps the row-major
  order, and the added axes have extent one, so each re-laid array at an index is the original at the index with the
  unit axes dropped.
-/
import proofs.«127211_j21629455303185_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.AttnValue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The rows of a `[16, 25]` array scaled to unit length: `x b w · rsqrt (max (∑ w', x b w'²) ε)`. -/
def unitRows25 (x : FVec F S16x25 .f32) : FVec F S16x25 .f32 :=
  mulf x (broadcastInDim S16x25 ![0, 1] bcast_S16x1_S16x25_0_1 (Host.rsqrt (maximumf
    (broadcastInDim S16x1 ![0] bcast_S16_S16x1_0
      (Host.reduceAdd (mulf x x) (constant S_ .f32 0x00000000#32) reducesTo_S16x25_S16_d1 h_S_))
    (broadcastInDim S16x1 ![] bcast_S_S16x1 (constant S_ .f32 0x2B8CBCCC#32)))))

/-- The rows of a `[16, 300]` array scaled to unit length: `x b h · rsqrt (max (∑ h', x b h'²) ε)`. -/
def unitRows300 (x : FVec F S16x300 .f32) : FVec F S16x300 .f32 :=
  mulf x (broadcastInDim S16x300 ![0, 1] bcast_S16x1_S16x300_0_1 (Host.rsqrt (maximumf
    (broadcastInDim S16x1 ![0] bcast_S16_S16x1_0
      (Host.reduceAdd (mulf x x) (constant S_ .f32 0x00000000#32) reducesTo_S16x300_S16_d1 h_S_))
    (broadcastInDim S16x1 ![] bcast_S_S16x1 (constant S_ .f32 0x2B8CBCCC#32)))))

variable (m : (ℓ : Loc nD τ sig) → Buf (Elt F) ℓ)

/-- At region entry the first staged array is the unit-length spatial rows, re-laid as `[16, 1, 25, 1]`. -/
theorem entry_spatial (c : Dev nD) :
    (V m c main_v16 : Vec F S16x1x25x1 .f32)
      = shapeCast S16x1x25x1 (unitRows25 (m ((c : Thread nD τ).loc main_arg0))) shapeCasts_S16x25_S16x1x25x1 := by
  dsimp only [Gen.V, Gen.hostOps0]
  after_results
  rfl

/-- At region entry the second staged array is the unit-length temporal rows, re-laid as `[16, 300, 1, 1]`. -/
theorem entry_temporal (c : Dev nD) :
    (V m c main_v17 : Vec F S16x300x1x1 .f32)
      = shapeCast S16x300x1x1 (unitRows300 (m ((c : Thread nD τ).loc main_arg1))) shapeCasts_S16x300_S16x300x1x1 := by
  dsimp only [Gen.V, Gen.hostOps0]
  after_results
  rfl

/-- At region entry the third staged array is the prior, re-laid as `[1, 300, 25, 1]`. -/
theorem entry_prior (c : Dev nD) :
    (V m c main_v18 : Vec F S1x300x25x1 .f32)
      = shapeCast S1x300x25x1 (m ((c : Thread nD τ).loc main_arg3)) shapeCasts_S1x300x25_S1x300x25x1 := by
  dsimp only [Gen.V, Gen.hostOps0]
  after_results
  rfl

/-! ## The three re-laid arrays read at an index -/

/-- `[16, 25] → [16, 1, 25, 1]` at `(b, 0, w, 0)` is the operand at `(b, w)`. -/
theorem relaid_spatial_apply {α : Type} (y : S16x25.Idx → α) (b : Fin 16) (w : Fin 25) :
    shapeCast S16x1x25x1 y shapeCasts_S16x25_S16x1x25x1 (ix4 b (0 : Fin 1) w (0 : Fin 1)) = y (ix2 b w) :=
  shapeCast_apply y _ (ix4 b (0 : Fin 1) w (0 : Fin 1)) (ix2 b w) (by
    rw [Shape.rowMajor_val_two, Shape.rowMajor_val_four]
    show b.val * 25 + w.val = ((b.val * 1 + 0) * 25 + w.val) * 1 + 0
    omega)

/-- `[16, 300] → [16, 300, 1, 1]` at `(b, h, 0, 0)` is the operand at `(b, h)`. -/
theorem relaid_temporal_apply {α : Type} (y : S16x300.Idx → α) (b : Fin 16) (h : Fin 300) :
    shapeCast S16x300x1x1 y shapeCasts_S16x300_S16x300x1x1 (ix4 b h (0 : Fin 1) (0 : Fin 1)) = y (ix2 b h) :=
  shapeCast_apply y _ (ix4 b h (0 : Fin 1) (0 : Fin 1)) (ix2 b h) (by
    rw [Shape.rowMajor_val_two, Shape.rowMajor_val_four]
    show b.val * 300 + h.val = ((b.val * 300 + h.val) * 1 + 0) * 1 + 0
    omega)

/-- `[1, 300, 25] → [1, 300, 25, 1]` at `(0, h, w, 0)` is the operand at `(0, h, w)`. -/
theorem relaid_prior_apply {α : Type} (y : S1x300x25.Idx → α) (h : Fin 300) (w : Fin 25) :
    shapeCast S1x300x25x1 y shapeCasts_S1x300x25_S1x300x25x1 (ix4 (0 : Fin 1) h w (0 : Fin 1)) = y (ix3 (0 : Fin 1) h w) :=
  shapeCast_apply y _ (ix4 (0 : Fin 1) h w (0 : Fin 1)) (ix3 (0 : Fin 1) h w) (by
    rw [Shape.rowMajor_val_three, Shape.rowMajor_val_four]
    show (0 * 300 + h.val) * 25 + w.val = ((0 * 300 + h.val) * 25 + w.val) * 1 + 0
    omega)

end Cert.KernelIdeal.AttnValue

end
-- ==== Proof.KernelArray.lean ====
/-
  From the blocks to the whole result array, and the kernel's run.

  The output window's block at grid point `(b, k)` is the box `{b} × [150 k, 150 k + 150) × [0, 25) × [0, 512)` of the
  result array. Every index `(b, h, w, c)` lies in exactly the block of the point `(b, h / 150)`, so the 32 blocks
  cover the array, and since each point writes back its block of one function (`windowed` of the staged arrays), the
  array after the run IS that function. The staged arrays are then replaced by what the host prologue put there:
  the unit-length rows of the two attention inputs and the prior, each re-laid with unit axes.
-/
import proofs.«127211_j21629455303185_2_alg».proof.Proof.KernelBlocks
import proofs.«127211_j21629455303185_2_alg».proof.Proof.KernelEntry

noncomputable section

namespace Cert.KernelIdeal.AttnValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- Every pair (batch, half of the height axis) is SOME grid point's output block index (decided over the grid). -/
theorem block_onto : ∀ (q0 : Fin 16) (q1 : Fin 2), ∃ t : Fin cfg0.N, win0_4.index t = ![q0.val, q1.val, 0, 0] :=
  (by decide +kernel : ∀ (q0 : Fin 16) (q1 : Fin 2), ∃ t : Fin grid0.N, win0_4.index t = ![q0.val, q1.val, 0, 0])

/-- An index of the result array is in point `t`'s block iff each coordinate is in the block's range on its axis. -/
theorem mem_block (t : Fin cfg0.N) (i : S16x300x25x512.Idx) :
    i ∈ ((cfg0.win 4).blk t).view.set ↔ ∀ a : Fin 4, win0_4.index t a * S1x150x25x512.size a ≤ (i a).val
      ∧ (i a).val < win0_4.index t a * S1x150x25x512.size a + S1x150x25x512.size a := by
  show i ∈ ((View.whole main_v19).slice (win0_4.rect t)).set ↔ _
  rw [View.set_slice_whole, Rect.mem_set_unit]
  exact Iff.rfl

/-- THE COVER: index `(b, h, w, c)` lies in the block of the point whose block index is `(b, h / 150, 0, 0)`, and that
    point writes its block back. -/
theorem covered (i : S16x300x25x512.Idx) :
    ∃ t : Fin cfg0.N, (cfg0.win 4).flush t = true ∧ i ∈ ((cfg0.win 4).blk t).view.set := by
  have hi0 : (i 0).val < 16 := (i 0).isLt
  have hi1 : (i 1).val < 300 := (i 1).isLt
  have hi2 : (i 2).val < 25 := (i 2).isLt
  have hi3 : (i 3).val < 512 := (i 3).isLt
  obtain ⟨t, ht⟩ := block_onto ⟨(i 0).val, hi0⟩ ⟨(i 1).val / 150, by omega⟩
  have q0 : win0_4.index t (0 : Fin 4) = (i 0).val := congrFun ht 0
  have q1 : win0_4.index t (1 : Fin 4) = (i 1).val / 150 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 150 ≤ (i 1).val ∧ (i 1).val < win0_4.index t (1 : Fin 4) * 150 + 150; omega
  | ⟨2, _⟩ => show win0_4.index t (2 : Fin 4) * 25 ≤ (i 2).val ∧ (i 2).val < win0_4.index t (2 : Fin 4) * 25 + 25; omega
  | ⟨3, _⟩ => show win0_4.index t (3 : Fin 4) * 512 ≤ (i 3).val ∧ (i 3).val < win0_4.index t (3 : Fin 4) * 512 + 512; omega

variable (m : (ℓ : Loc nD τ sig) → Buf (Elt F) ℓ) (ρ : Dev nD → PrngReg)

/-- THE RESULT ARRAY after the run is `windowed` of the four staged arrays as the region finds them. -/
theorem final_staged (c : Dev nD) :
    (dats m 0 c).arrAt 4 cfg0.N = windowed (V m c main_v16) (V m c main_v17) (V m c main_v18) (V m c main_arg2) :=
  (dats m 0 c).arrAt_eq_of_cover 4
    (windowed (V m c main_v16) (V m c main_v17) (V m c main_v18) (V m c main_arg2))
    (fun t _ => flushed_eq m c t) covered

/-- The same with the staged arrays at what the host prologue wrote: the unit-length rows of the two attention
    inputs and the prior, re-laid, and the input array as launched. -/
theorem final (c : Dev nD) :
    (dats m 0 c).arrAt 4 cfg0.N = windowed
      (shapeCast S16x1x25x1 (unitRows25 (m ((c : Thread nD τ).loc main_arg0))) shapeCasts_S16x25_S16x1x25x1)
      (shapeCast S16x300x1x1 (unitRows300 (m ((c : Thread nD τ).loc main_arg1))) shapeCasts_S16x300_S16x300x1x1)
      (shapeCast S1x300x25x1 (m ((c : Thread nD τ).loc main_arg3)) shapeCasts_S1x300x25_S1x300x25x1)
      (m ((c : Thread nD τ).loc main_arg2)) := by
  rw [final_staged, entry_spatial, entry_temporal, entry_prior, V_main_arg2]

/-- THE KERNEL'S RUN: every weakly fair execution terminates with the result array at `windowed` of the re-laid
    unit-length rows, the re-laid prior and the input, and with the four arguments unchanged. -/
theorem run : θ_run defs (onTc (τ := τ) (main (F := F))) ⟨m, fun _ => 0, ρ⟩ fun r => ∀ c : Dev nD,
      r.2.mem ((c : Thread nD τ).loc main_v19) = windowed
        (shapeCast S16x1x25x1 (unitRows25 (m ((c : Thread nD τ).loc main_arg0))) shapeCasts_S16x25_S16x1x25x1)
        (shapeCast S16x300x1x1 (unitRows300 (m ((c : Thread nD τ).loc main_arg1))) shapeCasts_S16x300_S16x300x1x1)
        (shapeCast S1x300x25x1 (m ((c : Thread nD τ).loc main_arg3)) shapeCasts_S1x300x25_S1x300x25x1)
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AttnValue

end
-- ==== Proof.KernelIsAttn.lean ====
/-
  At the extended reals the kernel's result array is the attention map applied to the input, with the outer product
  formed temporal factor first.

  `windowed` reads the re-laid arrays at `(b, h, 0, 0)`, `(b, 0, w, 0)` and `(0, h, w, 0)`; a re-laid array there is the
  original at `(b, h)`, `(b, w)` and `(0, h, w)`. So the result at `(b, h, w, c)` is
  `(t b h · s b w + roi 0 h w) · x b h w c` with `s`, `t` the unit-length rows: `Cert.AttnMap.scaledSwapped`.
-/
import proofs.«127211_j21629455303185_2_alg».proof.Proof.KernelBlocks
import proofs.«127211_j21629455303185_2_alg».proof.Proof.KernelEntry
import proofs.«127211_j21629455303185_2_alg».proof.Proof.AttnMap
import Idealize.ShloMosaic.PureOps.Ideal

noncomputable section

namespace Cert.KernelIdeal.AttnValue

open Cert.KernelIdeal Cert.KernelIdeal.Gen Idealize.ShloMosaic Idealize.ShloMosaic.ValueIdx

/-- `windowed` of the three re-laid arrays and the input is the attention map (outer product temporal factor
    first) applied to the input. -/
theorem windowed_relaid (s : FVec Ideal S16x25 .f32) (t : FVec Ideal S16x300 .f32) (roi : FVec Ideal S1x300x25 .f32)
    (x : FVec Ideal S16x300x25x512 .f32) :
    windowed (F := Ideal) (shapeCast S16x1x25x1 s shapeCasts_S16x25_S16x1x25x1)
      (shapeCast S16x300x1x1 t shapeCasts_S16x300_S16x300x1x1)
      (shapeCast S1x300x25x1 roi shapeCasts_S1x300x25_S1x300x25x1) x
      = Cert.AttnMap.scaledSwapped s t roi x := by
  funext i
  obtain ⟨b, h, w, c, rfl⟩ : ∃ (b : Fin 16) (h : Fin 300) (w : Fin 25) (c : Fin 512), i = ix4 b h w c :=
    ⟨i 0, i 1, i 2, i 3, eq_ix4 i⟩
  show FloatOps.mulf (FloatOps.addf (FloatOps.mulf
        (shapeCast S16x300x1x1 t shapeCasts_S16x300_S16x300x1x1 (ix4 b h (0 : Fin 1) (0 : Fin 1)))
        (shapeCast S16x1x25x1 s shapeCasts_S16x25_S16x1x25x1 (ix4 b (0 : Fin 1) w (0 : Fin 1))))
        (shapeCast S1x300x25x1 roi shapeCasts_S1x300x25_S1x300x25x1 (ix4 (0 : Fin 1) h w (0 : Fin 1))))
        (x (ix4 b h w c))
    = (t (ix2 b h) * s (ix2 b w) + roi (ix3 (0 : Fin 1) h w)) * x (ix4 b h w c)
  rw [relaid_spatial_apply, relaid_temporal_apply, relaid_prior_apply]
  rfl

end Cert.KernelIdeal.AttnValue

end
-- ==== Proof.lean ====
/-
  The kernel and its reference compute the same array over the extended reals.

  Both programs take a spatial attention input `s_o : [16, 25]`, a temporal one `t_o : [16, 300]`, an input
  `x : [16, 300, 25, 512]` and a prior `roi : [1, 300, 25]`. Both first scale every row of `s_o` and of `t_o` to unit
  length, `v ↦ v · rsqrt (max (∑ v²) ε)` with the same `ε`, by the same sequence of host operations; call the results
  `s` and `t`. The reference then forms the attention map `a b h w = s b w · t b h + roi 0 h w` by broadcasts and
  returns `a b h w · x b h w c`. The kernel re-lays `s`, `t` and `roi` with unit axes, and on a `16 × 2` grid computes,
  for batch `b` and each half of the height axis, `(t b h · s b w + roi 0 h w) · x b h w c` on the `150 × 25 × 512`
  tile; its 32 output blocks tile the result array.

  So the two results differ only in the order of the two factors of the outer product, and the product of extended
  reals is commutative without any side condition: the results are equal for every input, and the precondition
  (finite inputs) is not used by the value claim. The kernel's idealization rewrote no operation, so there is
  nothing to preserve.

  The modules: `AttnMap` states the common result and the commutation; `RefIsAttn` reads the reference's last stage
  at an index; `KernelEntry` says what the host prologue leaves in the staged arrays; `KernelBlocks` that each grid
  point writes its block of one whole-array function; `KernelArray` that the blocks cover the array, and the
  kernel's run; `KernelIsAttn` that this function is the attention map applied to the input.
-/
import proofs.«127211_j21629455303185_2_alg».proof.Defs
import proofs.«127211_j21629455303185_2_alg».proof.Proof.Gen.Kernel
import proofs.«127211_j21629455303185_2_alg».proof.Proof.Gen.Kernel.Skeleton
import proofs.«127211_j21629455303185_2_alg».proof.Proof.Gen.Kernel.Launch
import proofs.«127211_j21629455303185_2_alg».proof.Proof.Gen.Kernel.Points
import proofs.«127211_j21629455303185_2_alg».proof.Proof.Gen.Kernel.Frame
import proofs.«127211_j21629455303185_2_alg».proof.Proof.Gen.KernelIdeal
import proofs.«127211_j21629455303185_2_alg».proof.Proof.Gen.KernelIdeal.Skeleton
import proofs.«127211_j21629455303185_2_alg».proof.Proof.Gen.KernelIdeal.Launch
import proofs.«127211_j21629455303185_2_alg».proof.Proof.Gen.KernelIdeal.Points
import proofs.«127211_j21629455303185_2_alg».proof.Proof.Gen.KernelIdeal.Frame
import proofs.«127211_j21629455303185_2_alg».proof.Proof.Gen.ReferenceIdeal
import proofs.«127211_j21629455303185_2_alg».proof.Proof.Gen.Pre_finite_inputs
import proofs.«127211_j21629455303185_2_alg».proof.Proof.Gen.KernelIdeal.Value
import proofs.«127211_j21629455303185_2_alg».proof.Proof.Gen.ReferenceIdeal.Run
import proofs.«127211_j21629455303185_2_alg».proof.Proof.Gen.ReferenceIdeal.Read
import proofs.«127211_j21629455303185_2_alg».proof.Proof.AttnMap
import proofs.«127211_j21629455303185_2_alg».proof.Proof.RefIsAttn
import proofs.«127211_j21629455303185_2_alg».proof.Proof.KernelArray
import proofs.«127211_j21629455303185_2_alg».proof.Proof.KernelIsAttn
import Idealize.ShloMosaic.Adequacy
import Idealize.ShloMosaic.Init

noncomputable section

namespace Cert.Proof

open Idealize.ShloMosaic Idealize.SL.Sem

/-! ## The two programs' unit-length rows are one function -/

/-- The kernel's host prologue and the reference scale the spatial rows by the same operations. -/
theorem unitRows25_eq (x : FVec Ideal Cert.KernelIdeal.S16x25 .f32) :
    Cert.ReferenceIdeal.Read.val_main_v7 (F := Ideal) x = Cert.KernelIdeal.AttnValue.unitRows25 (F := Ideal) x := rfl

/-- The kernel's host prologue and the reference scale the temporal rows by the same operations. -/
theorem unitRows300_eq (x : FVec Ideal Cert.KernelIdeal.S16x300 .f32) :
    Cert.ReferenceIdeal.Read.val_main_v15 (F := Ideal) x = Cert.KernelIdeal.AttnValue.unitRows300 (F := Ideal) x := rfl

/-- The reference's result and the kernel's result array are the same function of the four arguments: both are the
    attention map of the unit-length rows and the prior applied to the input, the kernel's with the outer product's
    factors in the other order. -/
theorem results_agree (a0 : FVec Ideal Cert.KernelIdeal.S16x25 .f32) (a1 : FVec Ideal Cert.KernelIdeal.S16x300 .f32)
    (a2 : FVec Ideal Cert.KernelIdeal.S16x300x25x512 .f32) (a3 : FVec Ideal Cert.KernelIdeal.S1x300x25 .f32) :
    Cert.ReferenceIdeal.Read.val_main_v25 (F := Ideal) a0 a1 a2 a3
      = Cert.KernelIdeal.AttnValue.windowed (F := Ideal)
          (shapeCast Cert.KernelIdeal.S16x1x25x1 (Cert.KernelIdeal.AttnValue.unitRows25 a0)
            Cert.KernelIdeal.Facts₀.shapeCasts_S16x25_S16x1x25x1)
          (shapeCast Cert.KernelIdeal.S16x300x1x1 (Cert.KernelIdeal.AttnValue.unitRows300 a1)
            Cert.KernelIdeal.Facts₀.shapeCasts_S16x300_S16x300x1x1)
          (shapeCast Cert.KernelIdeal.S1x300x25x1 a3 Cert.KernelIdeal.Facts₀.shapeCasts_S1x300x25_S1x300x25x1) a2 := by
  rw [Cert.ReferenceIdeal.RefValue.result_eq, unitRows25_eq, unitRows300_eq,
    Cert.KernelIdeal.AttnValue.windowed_relaid, Cert.AttnMap.scaledSwapped_eq]

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the four arguments the kernel's result array ends at the attention map applied to
    the input (its run), and so does the reference's result (its run, read at an index): `results_agree`. -/
theorem algebraic : Cert.algebraic_KernelIdeal_ReferenceIdeal := by
  intro m ρ m' ρ' _ hagree
  refine ⟨_, Cert.KernelIdeal.AttnValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v25_eq]
  exact results_agree _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
